-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S64x32 : Shape := ⟨2, ![64, 32]⟩
abbrev S64x64 : Shape := ⟨2, ![64, 64]⟩
abbrev S192x64 : Shape := ⟨2, ![192, 64]⟩
abbrev S192 : Shape := ⟨1, ![192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x32 : S_.BroadcastsInDim S64x32 (![] : Fin 0 → Fin S64x32.rank)
  reducesTo_S64x32_S_d0_1 : S64x32.ReducesTo [0, 1] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg8 : FVec F S192 .f32) (main_v33 : IVec S_ 1) : IVec S_ 1 :=
  let main_v34 : FVec F S192 .f32 := Host.absf main_arg8
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  main_v38

def fn_part1 {F : FTy → Type} [FloatOps F] (main_arg5 : FVec F S192x64 .f32) (main_arg6 : FVec F S192x64 .f32) (main_arg7 : FVec F S192 .f32) (main_arg8 : FVec F S192 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192x64 .f32 := Host.absf main_arg6
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S192 .f32 := Host.absf main_arg7
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000x32 .f32) (main_arg3 : FVec F S64x32 .f32) (main_arg4 : FVec F S64x64 .f32) (main_arg5 : FVec F S192x64 .f32) (main_arg6 : FVec F S192x64 .f32) (main_arg7 : FVec F S192 .f32) (main_arg8 : FVec F S192 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S64x32 : Shape := ⟨2, ![64, 32]⟩
abbrev S64x64 : Shape := ⟨2, ![64, 64]⟩
abbrev S192x64 : Shape := ⟨2, ![192, 64]⟩
abbrev S192 : Shape := ⟨1, ![192]⟩
abbrev S32x64 : Shape := ⟨2, ![32, 64]⟩
abbrev S1600000x64 : Shape := ⟨2, ![1600000, 64]⟩
abbrev S8000x32 : Shape := ⟨2, ![8000, 32]⟩
abbrev S8000x64 : Shape := ⟨2, ![8000, 64]⟩
abbrev S5000x64 : Shape := ⟨2, ![5000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S64x192 : Shape := ⟨2, ![64, 192]⟩
abbrev S1x192 : Shape := ⟨2, ![1, 192]⟩
abbrev S2000x64 : Shape := ⟨2, ![2000, 64]⟩
abbrev S2000x192 : Shape := ⟨2, ![2000, 192]⟩

abbrev nBuf : Space → Nat
  | .hbm => 35
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S64x32, .f32⟩
  | .hbm, ⟨4, _⟩ => ⟨S64x64, .f32⟩
  | .hbm, ⟨5, _⟩ => ⟨S192x64, .f32⟩
  | .hbm, ⟨6, _⟩ => ⟨S192x64, .f32⟩
  | .hbm, ⟨7, _⟩ => ⟨S192, .f32⟩
  | .hbm, ⟨8, _⟩ => ⟨S192, .f32⟩
  | .hbm, ⟨9, _⟩ => ⟨S32x64, .f32⟩
  | .hbm, ⟨10, _⟩ => ⟨S1600000x64, .f32⟩
  | .hbm, ⟨11, _⟩ => ⟨S100000x64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S64x192, .f32⟩
  | .hbm, ⟨31, _⟩ => ⟨S64x192, .f32⟩
  | .hbm, ⟨32, _⟩ => ⟨S1x192, .f32⟩
  | .hbm, ⟨33, _⟩ => ⟨S1x192, .f32⟩
  | .hbm, ⟨34, _⟩ => ⟨S100000x64, .f32⟩
  | .local _ .vmem, ⟨0, _⟩ => ⟨S8000x32, .f32⟩
  | .local _ .vmem, ⟨1, _⟩ => ⟨S8000x32, .f32⟩
  | .local _ .vmem, ⟨2, _⟩ => ⟨S32x64, .f32⟩
  | .local _ .vmem, ⟨3, _⟩ => ⟨S8000x64, .f32⟩
  | .local _ .vmem, ⟨4, _⟩ => ⟨S8000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x192, .f32⟩
  | .local _ .vmem, ⟨15, _⟩ => ⟨S64x192, .f32⟩
  | .local _ .vmem, ⟨16, _⟩ => ⟨S1x192, .f32⟩
  | .local _ .vmem, ⟨17, _⟩ => ⟨S1x192, .f32⟩
  | .local _ .vmem, ⟨18, _⟩ => ⟨S2000x64, .f32⟩
  | .local _ .vmem, ⟨19, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x192 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x192 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S64x32_S32x64_1_0 : S64x32.Transposes [1, 0] S32x64
  inb_S8000x32_S8000x32_0_0 : ∀ a, (![0, 0] : Fin 2 → Nat) a + S8000x32.size a ≤ S8000x32.size a
  h_S8000x32 : 0 < S8000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S8000x64_S8000x64_0_0 : ∀ a, (![0, 0] : Fin 2 → Nat) a + S8000x64.size a ≤ S8000x64.size a
  h_S8000x64 : 0 < S8000x64.numel
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S192x64_S64x192_1_0 : S192x64.Transposes [1, 0] S64x192
  shapeCasts_S192_S1x192 : S192.ShapeCasts S1x192
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  dot_S8000x32_S32x64_S8000x64_1_0_0_1_n_n_wf : DotDims.WF S8000x32 S32x64 S8000x64 [1] [0] [0] [1] [] []
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x192_S2000x192_1_0_0_1_n_n_wf : DotDims.WF S2000x64 S64x192 S2000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1600000x32.size a
  hwx0_0 : ∀ i : grid0.Coords, EltTy.bits .f32 = 32 ∨ (Rect.block (s := S1600000x32) S8000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1600000x64.size a
  hwx0_2 : ∀ i : grid0.Coords, EltTy.bits .f32 = 32 ∨ (Rect.block (s := S1600000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x192.size a ≤ S64x192.size a
  hwx2_2 : ∀ i : grid2.Coords, EltTy.bits .f32 = 32 ∨ (Rect.block (s := S64x192) S64x192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x192.size a ≤ S64x192.size a
  hwx2_3 : ∀ i : grid2.Coords, EltTy.bits .f32 = 32 ∨ (Rect.block (s := S64x192) S64x192.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x192.size a ≤ S1x192.size a
  hwx2_4 : ∀ i : grid2.Coords, EltTy.bits .f32 = 32 ∨ (Rect.block (s := S1x192) S1x192.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x192.size a ≤ S1x192.size a
  hwx2_5 : ∀ i : grid2.Coords, EltTy.bits .f32 = 32 ∨ (Rect.block (s := S1x192) S1x192.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)

variable [Facts₀]

def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf

abbrev win0_0 : Pipeline.Window sig grid0 :=
  Pipeline.Window.ofSpec (Memref.whole main_arg2) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S64x192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S64x192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x192.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x192.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S64x32 : Shape := ⟨2, ![64, 32]⟩
abbrev S64x64 : Shape := ⟨2, ![64, 64]⟩
abbrev S192x64 : Shape := ⟨2, ![192, 64]⟩
abbrev S192 : Shape := ⟨1, ![192]⟩
abbrev S32x64 : Shape := ⟨2, ![32, 64]⟩
abbrev S1600000x64 : Shape := ⟨2, ![1600000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S64x192 : Shape := ⟨2, ![64, 192]⟩
abbrev S100000x192 : Shape := ⟨2, ![100000, 192]⟩
abbrev S1x192 : Shape := ⟨2, ![1, 192]⟩

abbrev nBuf : Space → Nat
  | .hbm => 83
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S64x32, .f32⟩
  | .hbm, ⟨4, _⟩ => ⟨S64x64, .f32⟩
  | .hbm, ⟨5, _⟩ => ⟨S192x64, .f32⟩
  | .hbm, ⟨6, _⟩ => ⟨S192x64, .f32⟩
  | .hbm, ⟨7, _⟩ => ⟨S192, .f32⟩
  | .hbm, ⟨8, _⟩ => ⟨S192, .f32⟩
  | .hbm, ⟨9, _⟩ => ⟨S32x64, .f32⟩
  | .hbm, ⟨10, _⟩ => ⟨S1600000x64, .f32⟩
  | .hbm, ⟨11, _⟩ => ⟨S100000x64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S64x192, .f32⟩
  | .hbm, ⟨31, _⟩ => ⟨S100000x192, .f32⟩
  | .hbm, ⟨32, _⟩ => ⟨S1x192, .f32⟩
  | .hbm, ⟨33, _⟩ => ⟨S100000x192, .f32⟩
  | .hbm, ⟨34, _⟩ => ⟨S100000x192, .f32⟩
  | .hbm, ⟨35, _⟩ => ⟨S64x192, .f32⟩
  | .hbm, ⟨36, _⟩ => ⟨S100000x192, .f32⟩
  | .hbm, ⟨37, _⟩ => ⟨S1x192, .f32⟩
  | .hbm, ⟨38, _⟩ => ⟨S100000x192, .f32⟩
  | .hbm, ⟨39, _⟩ => ⟨S100000x192, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_call0_cst : Ref sig .tc := ⟨.hbm, 73, rfl⟩
abbrev main_call0_v0 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  transposes_S64x32_S32x64_1_0 : S64x32.Transposes [1, 0] S32x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  transposes_S192x64_S64x192_1_0 : S192x64.Transposes [1, 0] S64x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  dot_S1600000x32_S32x64_S1600000x64_1_0_0_1_n_n_wf : DotDims.WF S1600000x32 S32x64 S1600000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x192_S100000x192_1_0_0_1_n_n_wf : DotDims.WF S100000x64 S64x192 S100000x192 [1] [0] [0] [1] [] []

variable [Facts₀]

def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf

class Facts : Prop extends Facts₀ where

variable [Facts]
-- ==== Proof.KernelRun.lean ====
/-
  The idealized kernel's run with its result buffer kept in view.

  The program is three pipelined calls among host lines. Its run, from any memory, ends with every buffer the host
  can name at the contents the last segment boundary assigns it: the fold through the first host line, the two
  matrix-product calls, the host lines that gather, multiply and scatter-add, and the gated-update call. Here that
  run is stated with the returned array among the buffers read off the final state, next to the nine arguments,
  which end as launched.
-/
import proofs.«143905_j64622077935967_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, without a fault, in a state whose returned array holds what the
    last boundary's contents assign it, and whose argument arrays are as launched. -/
theorem run_result : θ_run defs (onTc (τ := τ) (main (F := F))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Whole

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«143905_j64622077935967_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.EdgeProduct.lean ====
/-
  The first call: the edge attributes times the transposed edge weights, as one whole-array function.

  The left matrix is the 1600000 x 32 edge attributes, the right matrix the 32 x 64 array a host line wrote before the call
  (the transposed edge weights).
  The call tiles the rows: grid point t loads rows 8000 t, …, 8000 t + 7999 of the left matrix and the whole right matrix,
  multiplies them on the matrix unit (the right one through a re-lay to its own shape, both narrowed to bf16, which changes nothing on exact values; the accumulator
  starts at zero) and writes the 8000 rows of the product back. A band of rows of a product is the product of that band
  with the right matrix, the 200 bands are disjoint and fill the 1600000 rows, so after the call the output array holds
  the whole product, entry (p, q) the sum over k of left (p, k) · right (k, q). Stated at any contents of the
  buffers on entry to the call.
-/
import proofs.«143905_j64622077935967_1_alg».proof.Proof.Gen.KernelIdeal.Frame
import proofs.«143905_j64622077935967_1_alg».proof.Proof.LibMatProd
import Idealize.ShloMosaic.Lib.Pipeline.Value

set_option maxRecDepth 16384

noncomputable section

namespace Cert.KernelIdeal.EdgeProduct

open Cert.KernelIdeal Cert.KernelIdeal.Gen Idealize.ShloMosaic Idealize.ShloMosaic.TcCoe Idealize.SL.Sem
open Idealize.ShloMosaic.ValueIdx Cert.LibMatProd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- What one grid point computes from its two loaded blocks is their matrix product. -/
theorem block_product (x0 : Vec Ideal S8000x32 .f32) (x1 : Vec Ideal S32x64 .f32) : k0_pay1 x0 x1 = matProd x0 x1 := by
  unfold k0_pay1
  rw [shapeCast_self]
  exact matmul_eq dot_S8000x32_S32x64_S8000x64_1_0_0_1_n_n rfl rfl rfl rfl rfl rfl x0 x1 bitsLt_bf16_f32

/-- The whole product of the two arrays as the call finds them. -/
def product (c : Dev nD) : S1600000x64.Idx → EReal :=
  matProd (M := 1600000) (K := 32) (N := 64) (V c main_arg2) (V c main_v0)

/-- The printed index maps over the grid: the left and the output blocks are the t-th band of rows, the right block is
    the whole matrix. -/
theorem bands : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is band t of the whole product. -/
theorem written (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S8000x32) origin, View.ld_unit_zero (S := S32x64) origin]
  rw [block_product]
  obtain ⟨e0, e1, e2, e3, e4, e5⟩ := bands t
  funext j
  show matProd (iblk0 V c 0 t) (iblk0 V c 1 t) j = product V c (((cfg0.win 2).blk t).view.emb j)
  refine matProd_rows (V c main_arg2) (V c main_v0) (iblk0 V c 0 t) (iblk0 V c 1 t) (t.val * 8000) ?_ ?_ j _ ?_ ?_
  · intro p k hp
    show V c main_arg2 (((cfg0.win 0).blk t).view.emb (ix2 p k)) = _
    refine congrArg (V c main_arg2) (funext fun a => Fin.ext ?_)
    match a with
    | ⟨0, _⟩ => show win0_0.index t (0 : Fin 2) * 8000 + 1 * p.val = t.val * 8000 + p.val; rw [e0]; omega
    | ⟨1, _⟩ => show win0_0.index t (1 : Fin 2) * 32 + 1 * k.val = k.val; rw [e1]; omega
  · intro z
    show V c main_v0 (((cfg0.win 1).blk t).view.emb z) = _
    refine congrArg (V c main_v0) (funext fun a => Fin.ext ?_)
    match a with
    | ⟨0, _⟩ => show win0_1.index t (0 : Fin 2) * 32 + 1 * (z 0).val = (z 0).val; rw [e2]; omega
    | ⟨1, _⟩ => show win0_1.index t (1 : Fin 2) * 64 + 1 * (z 1).val = (z 1).val; rw [e3]; omega
  · show win0_2.index t (0 : Fin 2) * 8000 + 1 * (j 0).val = t.val * 8000 + (j 0).val; rw [e4]; omega
  · show win0_2.index t (1 : Fin 2) * 64 + 1 * (j 1).val = (j 1).val; rw [e5]; omega

/-- An index of the array is in point t's block iff each coordinate is in the block's range on its axis. -/
theorem in_band (t : Fin cfg0.N) (i : S1600000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v1).slice (win0_2.rect t)).set ↔ _
  rw [View.set_slice_whole, Rect.mem_set_unit]
  exact Iff.rfl

/-- Every entry lies in the band of the point numbered by its row divided by 8000. -/
theorem filled (i : S1600000x64.Idx) : ∃ t : Fin cfg0.N, (cfg0.win 2).flush t = true ∧ i ∈ ((cfg0.win 2).blk t).view.set := by
  have hi0 : (i 0).val < 1600000 := (i 0).isLt
  have hi1 : (i 1).val < 64 := (i 1).isLt
  have hlt : (i 0).val / 8000 < grid0.N := by rw [N_0]; omega
  obtain ⟨e0, e1, e2, e3, e4, e5⟩ := bands ⟨(i 0).val / 8000, hlt⟩
  refine ⟨⟨(i 0).val / 8000, hlt⟩, flush0_2 _, ?_⟩
  rw [in_band]
  intro a
  match a with
  | ⟨0, _⟩ =>
    show win0_2.index ⟨(i 0).val / 8000, hlt⟩ (0 : Fin 2) * 8000 ≤ (i 0).val ∧ (i 0).val < win0_2.index ⟨(i 0).val / 8000, hlt⟩ (0 : Fin 2) * 8000 + 8000
    rw [e4]; show (i 0).val / 8000 * 8000 ≤ (i 0).val ∧ (i 0).val < (i 0).val / 8000 * 8000 + 8000; omega
  | ⟨1, _⟩ =>
    show win0_2.index ⟨(i 0).val / 8000, hlt⟩ (1 : Fin 2) * 64 ≤ (i 1).val ∧ (i 1).val < win0_2.index ⟨(i 0).val / 8000, hlt⟩ (1 : Fin 2) * 64 + 64
    rw [e5]; omega

/-- After the call the output array is the whole product. -/
theorem whole (c : Dev nD) : (dat0 V c).arrAt 2 cfg0.N = product V c :=
  (dat0 V c).arrAt_eq_of_cover 2 (product V c) (fun t _ => written V c t) filled

end Cert.KernelIdeal.EdgeProduct

end
-- ==== Proof.NodeProduct.lean ====
/-
  The second call: the node features times the layer's weights, as one whole-array function.

  The left matrix is the 100000 x 64 node features, the right matrix the 64 x 64 weights.
  The call tiles the rows: grid point t loads rows 5000 t, …, 5000 t + 4999 of the left matrix and the whole right matrix,
  multiplies them on the matrix unit (both narrowed to bf16, which changes nothing on exact values; the accumulator
  starts at zero) and writes the 5000 rows of the product back. A band of rows of a product is the product of that band
  with the right matrix, the 20 bands are disjoint and fill the 100000 rows, so after the call the output array holds
  the whole product, entry (p, q) the sum over k of left (p, k) · right (k, q). Stated at any contents of the
  buffers on entry to the call.
-/
import proofs.«143905_j64622077935967_1_alg».proof.Proof.Gen.KernelIdeal.Frame
import proofs.«143905_j64622077935967_1_alg».proof.Proof.LibMatProd
import Idealize.ShloMosaic.Lib.Pipeline.Value

set_option maxRecDepth 16384

noncomputable section

namespace Cert.KernelIdeal.NodeProduct

open Cert.KernelIdeal Cert.KernelIdeal.Gen Idealize.ShloMosaic Idealize.ShloMosaic.TcCoe Idealize.SL.Sem
open Idealize.ShloMosaic.ValueIdx Cert.LibMatProd
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- What one grid point computes from its two loaded blocks is their matrix product. -/
theorem block_product (x0 : Vec Ideal S5000x64 .f32) (x1 : Vec Ideal S64x64 .f32) : k1_pay1 x0 x1 = matProd x0 x1 :=
  matmul_eq dot_S5000x64_S64x64_S5000x64_1_0_0_1_n_n rfl rfl rfl rfl rfl rfl x0 x1 bitsLt_bf16_f32

/-- The whole product of the two arrays as the call finds them. -/
def product (c : Dev nD) : S100000x64.Idx → EReal :=
  matProd (M := 100000) (K := 64) (N := 64) (V c main_arg0) (V c main_arg4)

/-- The printed index maps over the grid: the left and the output blocks are the t-th band of rows, the right block is
    the whole matrix. -/
theorem bands : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is band t of the whole product. -/
theorem written (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero origin]
  simp only [View.ld_unit_zero (S := S5000x64) origin, View.ld_unit_zero (S := S64x64) origin]
  rw [block_product]
  obtain ⟨e0, e1, e2, e3, e4, e5⟩ := bands t
  funext j
  show matProd (iblk1 V c 0 t) (iblk1 V c 1 t) j = product V c (((cfg1.win 2).blk t).view.emb j)
  refine matProd_rows (V c main_arg0) (V c main_arg4) (iblk1 V c 0 t) (iblk1 V c 1 t) (t.val * 5000) ?_ ?_ j _ ?_ ?_
  · intro p k hp
    show V c main_arg0 (((cfg1.win 0).blk t).view.emb (ix2 p k)) = _
    refine congrArg (V c main_arg0) (funext fun a => Fin.ext ?_)
    match a with
    | ⟨0, _⟩ => show win1_0.index t (0 : Fin 2) * 5000 + 1 * p.val = t.val * 5000 + p.val; rw [e0]; omega
    | ⟨1, _⟩ => show win1_0.index t (1 : Fin 2) * 64 + 1 * k.val = k.val; rw [e1]; omega
  · intro z
    show V c main_arg4 (((cfg1.win 1).blk t).view.emb z) = _
    refine congrArg (V c main_arg4) (funext fun a => Fin.ext ?_)
    match a with
    | ⟨0, _⟩ => show win1_1.index t (0 : Fin 2) * 64 + 1 * (z 0).val = (z 0).val; rw [e2]; omega
    | ⟨1, _⟩ => show win1_1.index t (1 : Fin 2) * 64 + 1 * (z 1).val = (z 1).val; rw [e3]; omega
  · show win1_2.index t (0 : Fin 2) * 5000 + 1 * (j 0).val = t.val * 5000 + (j 0).val; rw [e4]; omega
  · show win1_2.index t (1 : Fin 2) * 64 + 1 * (j 1).val = (j 1).val; rw [e5]; omega

/-- An index of the array is in point t's block iff each coordinate is in the block's range on its axis. -/
theorem in_band (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v2).slice (win1_2.rect t)).set ↔ _
  rw [View.set_slice_whole, Rect.mem_set_unit]
  exact Iff.rfl

/-- Every entry lies in the band of the point numbered by its row divided by 5000. -/
theorem filled (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hlt : (i 0).val / 5000 < grid1.N := by rw [N_1]; omega
  obtain ⟨e0, e1, e2, e3, e4, e5⟩ := bands ⟨(i 0).val / 5000, hlt⟩
  refine ⟨⟨(i 0).val / 5000, hlt⟩, flush1_2 _, ?_⟩
  rw [in_band]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ (1 : Fin 2) * 64 ≤ (i 1).val ∧ (i 1).val < win1_2.index ⟨(i 0).val / 5000, hlt⟩ (1 : Fin 2) * 64 + 64
    rw [e5]; omega

/-- After the call the output array is the whole product. -/
theorem whole (c : Dev nD) : (dat1 V c).arrAt 2 cfg1.N = product V c :=
  (dat1 V c).arrAt_eq_of_cover 2 (product V c) (fun t _ => written V c t) filled

end Cert.KernelIdeal.NodeProduct

end
-- ==== Proof.LibGatedUpdate.lean ====
/-
  The gated recurrent update of node features, entry by entry, at the exact extended reals.

  Two matrices of 192 columns, one from the aggregated messages and one from the node features, are each read as three
  groups of 64 columns: reset, update and candidate. With r the logistic function of the two reset entries' sum, z the
  logistic function of the two update entries' sum, and n the hyperbolic tangent of (the first candidate entry plus r
  times the second), the new feature is (1 - z) * n + z * x, clamped below at 0, and the result is the mean of that and
  x, written with the float words of 1/2, 1 and 0 kept as words. Facts here: a slice of one column group read at an
  entry; rows-times-columns plus a bias held as one row; and that a band of consecutive rows of the update is the update
  computed from that band of rows alone, which is what one block of a row-tiled computation holds.
  Builds on LibMatProd.lean and LibPlainDot.lean (rows-times-columns-plus-bias and its bands of rows).
-/
import proofs.«143905_j64622077935967_1_alg».proof.Proof.LibMatProd

noncomputable section

namespace Cert.LibGatedUpdate

open Idealize.ShloMosaic Idealize.ShloMosaic.ValueIdx Cert.LibPlainDot Cert.LibMatProd

/-- Column q of the j-th group of 64 among 192 columns. -/
def col (j : Fin 3) (q : Fin 64) : Fin 192 := ⟨64 * j.val + q.val, by have := j.isLt; have := q.isLt; omega⟩

/-- The update at entry (p, q), from the two 192-column matrices and the features. -/
def blend {M : ℕ} (gi gh : FVec Ideal ⟨2, ![M, 192]⟩ .f32) (x : FVec Ideal ⟨2, ![M, 64]⟩ .f32) :
    FVec Ideal ⟨2, ![M, 64]⟩ .f32 := fun i =>
  Ideal.ofBits .f32 0x3F000000#32
      * max ((Ideal.ofBits .f32 0x3F800000#32
              - Ideal.logistic (gi (ix2 (i 0) (col 1 (i 1))) + gh (ix2 (i 0) (col 1 (i 1)))))
            * Ideal.tanh (gi (ix2 (i 0) (col 2 (i 1)))
                + Ideal.logistic (gi (ix2 (i 0) (col 0 (i 1))) + gh (ix2 (i 0) (col 0 (i 1)))) * gh (ix2 (i 0) (col 2 (i 1))))
          + Ideal.logistic (gi (ix2 (i 0) (col 1 (i 1))) + gh (ix2 (i 0) (col 1 (i 1)))) * x i)
        (Ideal.ofBits .f32 0x00000000#32)
    + Ideal.ofBits .f32 0x3F000000#32 * x i

theorem blend_apply {M : ℕ} (gi gh : FVec Ideal ⟨2, ![M, 192]⟩ .f32) (x : FVec Ideal ⟨2, ![M, 64]⟩ .f32) (p : Fin M) (q : Fin 64) :
    blend gi gh x (ix2 p q) =
      Ideal.ofBits .f32 0x3F000000#32
          * max ((Ideal.ofBits .f32 0x3F800000#32 - Ideal.logistic (gi (ix2 p (col 1 q)) + gh (ix2 p (col 1 q))))
                * Ideal.tanh (gi (ix2 p (col 2 q)) + Ideal.logistic (gi (ix2 p (col 0 q)) + gh (ix2 p (col 0 q))) * gh (ix2 p (col 2 q)))
              + Ideal.logistic (gi (ix2 p (col 1 q)) + gh (ix2 p (col 1 q))) * x (ix2 p q))
            (Ideal.ofBits .f32 0x00000000#32)
        + Ideal.ofBits .f32 0x3F000000#32 * x (ix2 p q) := rfl

/-- The j-th group of 64 columns, sliced out of a 192-column matrix, read at (p, q): the matrix at (p, 64 j + q). -/
theorem slice_col {M : ℕ} (j : Fin 3) (v : (⟨2, ![M, 192]⟩ : Shape).Idx → EReal)
    (h : (⟨2, ![M, 192]⟩ : Shape).Slices ![0, 64 * j.val] ⟨2, ![M, 64]⟩) (p : Fin M) (q : Fin 64) :
    extractStridedSlice ⟨2, ![M, 64]⟩ ![0, 64 * j.val] v h (ix2 p q) = v (ix2 p (col j q)) :=
  extractStridedSlice_apply _ v h _ (ix2 p (col j q)) (fun a => match a with
    | ⟨0, _⟩ => by show p.val = 0 + p.val; omega
    | ⟨1, _⟩ => rfl)

/-- A bias held as a matrix of one row, read as a vector. -/
def rowVec {N : ℕ} (b : FVec Ideal ⟨2, ![1, N]⟩ .f32) : FVec Ideal ⟨1, ![N]⟩ .f32 := fun i => b (ix2 (0 : Fin 1) (i 0))

/-- A vector re-laid as one row, read back as a vector, is itself. -/
theorem rowVec_cast {N : ℕ} (b : FVec Ideal ⟨1, ![N]⟩ .f32) (h : (⟨1, ![N]⟩ : Shape).ShapeCasts ⟨2, ![1, N]⟩) :
    rowVec (shapeCast ⟨2, ![1, N]⟩ b h) = b := by
  funext i
  obtain ⟨q, rfl⟩ : ∃ q : Fin N, i = ix1 q := ⟨i 0, eq_ix1 i⟩
  exact shapeCast_a_1a_apply b h 0 q

/-- A matrix unit's product of two operands narrowed to bf16 into a zero accumulator, plus a bias row repeated down the
    rows: at (p, c) it is rows-times-columns plus the bias. Narrowing is the identity on exact values. -/
theorem unit_affine_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨2, ![1, N]⟩ .f32)
    (hb : FTy.bf16.bits < FTy.f32.bits) (hbc : (⟨2, ![1, N]⟩ : Shape).Broadcasts ⟨2, ![M, N]⟩)
    (p : Fin M) (c : Fin N) :
    addf (matmul d none (truncf .bf16 x hb) (truncf .bf16 w hb) (constant ⟨2, ![M, N]⟩ .f32 0x00000000#32))
        (broadcastTo ⟨2, ![M, N]⟩ b hbc) (ix2 p c)
      = affine x w (rowVec b) (ix2 p c) := by
  rw [affine_apply, addf_apply, broadcastTo_1b_ab_apply]
  refine congrArg (· + b (ix2 (0 : Fin 1) c)) ?_
  refine (Ideal.matmul_constant_zero_apply d none _ _ (ix2 p c)).trans ?_
  exact plain_sum d h1 h2 h3 h4 h5 h6 x w p c

/-- Rows r, …, r + T − 1 of the update: when the two 192-column blocks and the feature block hold those rows of the whole
    matrices, the block's update at y is the whole update at the entry whose row is r plus y's row and whose column is y's. -/
theorem blend_rows {M T : ℕ} (GI GH : FVec Ideal ⟨2, ![M, 192]⟩ .f32) (X : FVec Ideal ⟨2, ![M, 64]⟩ .f32)
    (gi gh : FVec Ideal ⟨2, ![T, 192]⟩ .f32) (x : FVec Ideal ⟨2, ![T, 64]⟩ .f32) (r : ℕ)
    (hgi : ∀ (p : Fin T) (c : Fin 192) (hp : r + p.val < M), gi (ix2 p c) = GI (ix2 ⟨r + p.val, hp⟩ c))
    (hgh : ∀ (p : Fin T) (c : Fin 192) (hp : r + p.val < M), gh (ix2 p c) = GH (ix2 ⟨r + p.val, hp⟩ c))
    (hx : ∀ (p : Fin T) (k : Fin 64) (hp : r + p.val < M), x (ix2 p k) = X (ix2 ⟨r + p.val, hp⟩ k))
    (y : (⟨2, ![T, 64]⟩ : Shape).Idx) (i : (⟨2, ![M, 64]⟩ : Shape).Idx)
    (hi0 : (i 0).val = r + (y 0).val) (hi1 : (i 1).val = (y 1).val) :
    blend gi gh x y = blend GI GH X i := by
  obtain ⟨p, q, rfl⟩ : ∃ (p : Fin T) (q : Fin 64), y = ix2 p q := ⟨y 0, y 1, eq_ix2 y⟩
  obtain ⟨p', q', rfl⟩ : ∃ (p' : Fin M) (q' : Fin 64), i = ix2 p' q' := ⟨i 0, i 1, eq_ix2 i⟩
  have h0 : p'.val = r + p.val := hi0
  have h1 : q' = q := Fin.ext hi1
  subst h1
  have hlt : r + p.val < M := h0 ▸ p'.isLt
  have hp' : p' = ⟨r + p.val, hlt⟩ := Fin.ext h0
  rw [blend_apply, blend_apply, hgi p _ hlt, hgi p _ hlt, hgi p _ hlt, hgh p _ hlt, hgh p _ hlt, hgh p _ hlt, hx p _ hlt, ← hp']

end Cert.LibGatedUpdate

end
-- ==== Proof.UpdateCall.lean ====
/-
  The third call: the gated update of the node features, as one whole-array function.

  Its operands are the aggregated messages and the node features (100000 x 64 each, read in bands of 2000 rows), two
  64 x 192 weight matrices and two biases held as 1 x 192 rows (each read whole at every point). Grid point t computes,
  on the matrix unit, band t of (messages times first weights plus first bias) and of (features times second weights
  plus second bias), and from those and the band of features the gated update of LibGatedUpdate.lean, and writes the 2000
  rows back. Every entry of the update depends on one row of each 192-column matrix only, and a band of rows of
  rows-times-columns-plus-bias is that of the band, so what point t writes is band t of the update of the whole
  arrays. The 50 bands fill the 100000 rows, so after the call the output array holds the whole update. Stated at any
  contents of the buffers on entry to the call.
-/
import proofs.«143905_j64622077935967_1_alg».proof.Proof.Gen.KernelIdeal.Frame
import proofs.«143905_j64622077935967_1_alg».proof.Proof.LibGatedUpdate
import Idealize.ShloMosaic.Lib.Pipeline.Value

set_option maxRecDepth 16384

noncomputable section

namespace Cert.KernelIdeal.UpdateCall

open Cert.KernelIdeal Cert.KernelIdeal.Gen Idealize.ShloMosaic Idealize.ShloMosaic.TcCoe Idealize.SL.Sem
open Idealize.ShloMosaic.ValueIdx Cert.LibPlainDot Cert.LibGatedUpdate
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

/-- The three column groups of a block of 2000 rows, read at an entry. -/
theorem group0 (v : S2000x192.Idx → EReal) (p : Fin 2000) (q : Fin 64) :
    extractStridedSlice S2000x64 ![0, 0] v slices_S2000x192_o0_0_S2000x64 (ix2 p q) = v (ix2 p (col 0 q)) :=
  slice_col (M := 2000) 0 v slices_S2000x192_o0_0_S2000x64 p q
theorem group1 (v : S2000x192.Idx → EReal) (p : Fin 2000) (q : Fin 64) :
    extractStridedSlice S2000x64 ![0, 64] v slices_S2000x192_o0_64_S2000x64 (ix2 p q) = v (ix2 p (col 1 q)) :=
  slice_col (M := 2000) 1 v slices_S2000x192_o0_64_S2000x64 p q
theorem group2 (v : S2000x192.Idx → EReal) (p : Fin 2000) (q : Fin 64) :
    extractStridedSlice S2000x64 ![0, 128] v slices_S2000x192_o0_128_S2000x64 (ix2 p q) = v (ix2 p (col 2 q)) :=
  slice_col (M := 2000) 2 v slices_S2000x192_o0_128_S2000x64 p q

/-- What one grid point computes from its six loaded blocks is the gated update of the blocks: the two matrix-unit
    products with their bias rows are rows-times-columns-plus-bias, the rest is entry by entry. -/
theorem block_update (x0 x1 : Vec Ideal S2000x64 .f32) (x2 x3 : Vec Ideal S64x192 .f32) (x4 x5 : Vec Ideal S1x192 .f32) :
    k2_pay1 x1 (k2_pay2 x0 x1 x2 x4 x3 x5) (k2_pay3 (F := Ideal))
      = blend (M := 2000) (affine (M := 2000) (K := 64) (N := 192) x0 x2 (rowVec x4)) (affine (M := 2000) (K := 64) (N := 192) x1 x3 (rowVec x5)) x1 := by
  funext j
  obtain ⟨p, q, rfl⟩ : ∃ (p : Fin 2000) (q : Fin 64), j = ix2 p q := ⟨j 0, j 1, eq_ix2 j⟩
  have gi : ∀ cc : Fin 192, matmul (F := Ideal) dot_S2000x64_S64x192_S2000x192_1_0_0_1_n_n none (truncf .bf16 x0 bitsLt_bf16_f32) (truncf .bf16 x2 bitsLt_bf16_f32)
        (constant S2000x192 .f32 0x00000000#32) (ix2 p cc) + broadcastTo S2000x192 x4 broadcasts_S1x192_S2000x192 (ix2 p cc)
      = affine (M := 2000) (K := 64) (N := 192) x0 x2 (rowVec x4) (ix2 p cc) := fun cc =>
    unit_affine_apply dot_S2000x64_S64x192_S2000x192_1_0_0_1_n_n rfl rfl rfl rfl rfl rfl x0 x2 x4 bitsLt_bf16_f32 broadcasts_S1x192_S2000x192 p cc
  have gh : ∀ cc : Fin 192, matmul (F := Ideal) dot_S2000x64_S64x192_S2000x192_1_0_0_1_n_n none (truncf .bf16 x1 bitsLt_bf16_f32) (truncf .bf16 x3 bitsLt_bf16_f32)
        (constant S2000x192 .f32 0x00000000#32) (ix2 p cc) + broadcastTo S2000x192 x5 broadcasts_S1x192_S2000x192 (ix2 p cc)
      = affine (M := 2000) (K := 64) (N := 192) x1 x3 (rowVec x5) (ix2 p cc) := fun cc =>
    unit_affine_apply dot_S2000x64_S64x192_S2000x192_1_0_0_1_n_n rfl rfl rfl rfl rfl rfl x1 x3 x5 bitsLt_bf16_f32 broadcasts_S1x192_S2000x192 p cc
  rw [blend_apply]
  unfold k2_pay1 k2_pay2 k2_pay3
  simp only [addf_apply, mulf_apply, subf_apply, maximumf_apply, broadcast_apply, logistic_at, tanh_at, group0, group1, group2,
    shapeCast_self, gi, gh]
  rfl

/-- The gated update of the whole arrays as the call finds them. -/
def update (c : Dev nD) : S100000x64.Idx → EReal :=
  blend (M := 100000)
    (affine (M := 100000) (K := 64) (N := 192) (V c main_v17) (V c main_v18) (rowVec (N := 192) (V c main_v20)))
    (affine (M := 100000) (K := 64) (N := 192) (V c main_arg0) (V c main_v19) (rowVec (N := 192) (V c main_v21)))
    (V c main_arg0)

/-- The printed index maps over the grid: the messages, the features and the output are read or written in band t, the
    weights and the biases whole. -/
theorem bands : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point t writes back is band t of the whole update. -/
theorem written (c : Dev nD) (t : Fin cfg2.N) :
    (dat2 V c).flushed 6 t = ((cfg2.win 6).blk t).view.read (Elt Ideal) (update V c) := by
  show (cfg2.win 6).cut (grid2.coords t) ((dat2 V c).after 6 t) = _
  rw [after2_6]
  unfold out2_6
  rw [View.canon_unit_zero origin]
  simp only [View.ld_unit_zero (S := S2000x64) origin, View.ld_unit_zero (S := S64x192) origin, View.ld_unit_zero (S := S1x192) origin]
  rw [block_update]
  obtain ⟨a0, a1, b0, b1, c0, c1, d0, d1, f0, f1, g0, g1, o0, o1⟩ := bands t
  have hagg : ∀ (p : Fin 2000) (k : Fin 64) (hp : t.val * 2000 + p.val < 100000),
      iblk2 V c 0 t (ix2 p k) = V c main_v17 (ix2 ⟨t.val * 2000 + p.val, hp⟩ k) := by
    intro p k hp
    show V c main_v17 (((cfg2.win 0).blk t).view.emb (ix2 p k)) = _
    refine congrArg (V c main_v17) (funext fun a => Fin.ext ?_)
    match a with
    | ⟨0, _⟩ => show win2_0.index t (0 : Fin 2) * 2000 + 1 * p.val = t.val * 2000 + p.val; rw [a0]; omega
    | ⟨1, _⟩ => show win2_0.index t (1 : Fin 2) * 64 + 1 * k.val = k.val; rw [a1]; omega
  have hfeat : ∀ (p : Fin 2000) (k : Fin 64) (hp : t.val * 2000 + p.val < 100000),
      iblk2 V c 1 t (ix2 p k) = V c main_arg0 (ix2 ⟨t.val * 2000 + p.val, hp⟩ k) := by
    intro p k hp
    show V c main_arg0 (((cfg2.win 1).blk t).view.emb (ix2 p k)) = _
    refine congrArg (V c main_arg0) (funext fun a => Fin.ext ?_)
    match a with
    | ⟨0, _⟩ => show win2_1.index t (0 : Fin 2) * 2000 + 1 * p.val = t.val * 2000 + p.val; rw [b0]; omega
    | ⟨1, _⟩ => show win2_1.index t (1 : Fin 2) * 64 + 1 * k.val = k.val; rw [b1]; omega
  have hwi : ∀ z, iblk2 V c 2 t z = V c main_v18 z := by
    intro z
    show V c main_v18 (((cfg2.win 2).blk t).view.emb z) = _
    refine congrArg (V c main_v18) (funext fun a => Fin.ext ?_)
    match a with
    | ⟨0, _⟩ => show win2_2.index t (0 : Fin 2) * 64 + 1 * (z 0).val = (z 0).val; rw [c0]; omega
    | ⟨1, _⟩ => show win2_2.index t (1 : Fin 2) * 192 + 1 * (z 1).val = (z 1).val; rw [c1]; omega
  have hwh : ∀ z, iblk2 V c 3 t z = V c main_v19 z := by
    intro z
    show V c main_v19 (((cfg2.win 3).blk t).view.emb z) = _
    refine congrArg (V c main_v19) (funext fun a => Fin.ext ?_)
    match a with
    | ⟨0, _⟩ => show win2_3.index t (0 : Fin 2) * 64 + 1 * (z 0).val = (z 0).val; rw [d0]; omega
    | ⟨1, _⟩ => show win2_3.index t (1 : Fin 2) * 192 + 1 * (z 1).val = (z 1).val; rw [d1]; omega
  have hbi : ∀ z, iblk2 V c 4 t z = V c main_v20 z := by
    intro z
    show V c main_v20 (((cfg2.win 4).blk t).view.emb z) = _
    refine congrArg (V c main_v20) (funext fun a => Fin.ext ?_)
    match a with
    | ⟨0, _⟩ => show win2_4.index t (0 : Fin 2) * 1 + 1 * (z 0).val = (z 0).val; rw [f0]; omega
    | ⟨1, _⟩ => show win2_4.index t (1 : Fin 2) * 192 + 1 * (z 1).val = (z 1).val; rw [f1]; omega
  have hbh : ∀ z, iblk2 V c 5 t z = V c main_v21 z := by
    intro z
    show V c main_v21 (((cfg2.win 5).blk t).view.emb z) = _
    refine congrArg (V c main_v21) (funext fun a => Fin.ext ?_)
    match a with
    | ⟨0, _⟩ => show win2_5.index t (0 : Fin 2) * 1 + 1 * (z 0).val = (z 0).val; rw [g0]; omega
    | ⟨1, _⟩ => show win2_5.index t (1 : Fin 2) * 192 + 1 * (z 1).val = (z 1).val; rw [g1]; omega
  funext j
  show blend (M := 2000) (affine (M := 2000) (K := 64) (N := 192) (iblk2 V c 0 t) (iblk2 V c 2 t) (rowVec (N := 192) (iblk2 V c 4 t)))
      (affine (M := 2000) (K := 64) (N := 192) (iblk2 V c 1 t) (iblk2 V c 3 t) (rowVec (N := 192) (iblk2 V c 5 t))) (iblk2 V c 1 t) j
    = update V c (((cfg2.win 6).blk t).view.emb j)
  refine blend_rows (M := 100000) (T := 2000)
    (affine (M := 100000) (K := 64) (N := 192) (V c main_v17) (V c main_v18) (rowVec (N := 192) (V c main_v20)))
    (affine (M := 100000) (K := 64) (N := 192) (V c main_arg0) (V c main_v19) (rowVec (N := 192) (V c main_v21)))
    (V c main_arg0) _ _ _ (t.val * 2000) ?_ ?_ hfeat j _ ?_ ?_
  · intro p cc hp
    exact affine_rows (M := 100000) (K := 64) (N := 192) (T := 2000) (V c main_v17) (V c main_v18) (rowVec (N := 192) (V c main_v20))
      (iblk2 V c 0 t) (iblk2 V c 2 t) (rowVec (N := 192) (iblk2 V c 4 t)) (t.val * 2000) hagg hwi (fun z => hbi _) (ix2 p cc) (ix2 ⟨t.val * 2000 + p.val, hp⟩ cc) rfl rfl
  · intro p cc hp
    exact affine_rows (M := 100000) (K := 64) (N := 192) (T := 2000) (V c main_arg0) (V c main_v19) (rowVec (N := 192) (V c main_v21))
      (iblk2 V c 1 t) (iblk2 V c 3 t) (rowVec (N := 192) (iblk2 V c 5 t)) (t.val * 2000) hfeat hwh (fun z => hbh _) (ix2 p cc) (ix2 ⟨t.val * 2000 + p.val, hp⟩ cc) rfl rfl
  · show win2_6.index t (0 : Fin 2) * 2000 + 1 * (j 0).val = t.val * 2000 + (j 0).val; rw [o0]; omega
  · show win2_6.index t (1 : Fin 2) * 64 + 1 * (j 1).val = (j 1).val; rw [o1]; omega

/-- An index of the array is in point t's block iff each coordinate is in the block's range on its axis. -/
theorem in_band (t : Fin cfg2.N) (i : S100000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v22).slice (win2_6.rect t)).set ↔ _
  rw [View.set_slice_whole, Rect.mem_set_unit]
  exact Iff.rfl

/-- Every entry lies in the band of the point numbered by its row divided by 2000. -/
theorem filled (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hlt : (i 0).val / 2000 < grid2.N := by rw [N_2]; omega
  obtain ⟨a0, a1, b0, b1, c0, c1, d0, d1, f0, f1, g0, g1, o0, o1⟩ := bands ⟨(i 0).val / 2000, hlt⟩
  refine ⟨⟨(i 0).val / 2000, hlt⟩, flush2_6 _, ?_⟩
  rw [in_band]
  intro a
  match a with
  | ⟨0, _⟩ =>
    show win2_6.index ⟨(i 0).val / 2000, hlt⟩ (0 : Fin 2) * 2000 ≤ (i 0).val ∧ (i 0).val < win2_6.index ⟨(i 0).val / 2000, hlt⟩ (0 : Fin 2) * 2000 + 2000
    rw [o0]; show (i 0).val / 2000 * 2000 ≤ (i 0).val ∧ (i 0).val < (i 0).val / 2000 * 2000 + 2000; omega
  | ⟨1, _⟩ =>
    show win2_6.index ⟨(i 0).val / 2000, hlt⟩ (1 : Fin 2) * 64 ≤ (i 1).val ∧ (i 1).val < win2_6.index ⟨(i 0).val / 2000, hlt⟩ (1 : Fin 2) * 64 + 64
    rw [o1]; omega

/-- After the call the output array is the whole update. -/
theorem whole (c : Dev nD) : (dat2 V c).arrAt 6 cfg2.N = update V c :=
  (dat2 V c).arrAt_eq_of_cover 6 (update V c) (fun t _ => written V c t) filled

end Cert.KernelIdeal.UpdateCall

end
-- ==== Proof.Aggregate.lean ====
/-
  The message aggregation between the two matrix products and the gated update, as one function.

  From a node matrix mm (100000 x 64), an edge matrix ew (1600000 x 64) and the 2 x 1600000 integer array of edge
  endpoints: row 0 of the endpoints is the source of each edge and row 1 its destination. A negative source has
  100000 added to it; the gather then takes, for each edge, the row of mm its source names (the gather's own clamping
  is part of the dimension record); that row is multiplied entry by entry with the edge's row of ew; and the products
  are scatter-added into a zero matrix at the destinations. Both programs spell this with the same host operations; the
  definition takes the gather and scatter records and the shape side conditions as arguments so that each program's
  text is an instance of it.
-/
import Idealize.ShloMosaic.PureOps.Ideal

noncomputable section

namespace Cert.Aggregate

open Idealize.ShloMosaic

/-- The shapes: node matrix, edge matrix, the endpoint array, one of its rows, that row as a vector and as a column,
    and the scalar. -/
abbrev Nodes : Shape := ⟨2, ![100000, 64]⟩
abbrev Edges : Shape := ⟨2, ![1600000, 64]⟩
abbrev Ends : Shape := ⟨2, ![2, 1600000]⟩
abbrev EndRow : Shape := ⟨2, ![1, 1600000]⟩
abbrev EndVec : Shape := ⟨1, ![1600000]⟩
abbrev EndCol : Shape := ⟨2, ![1600000, 1]⟩
abbrev Scalar0 : Shape := ⟨0, ![]⟩

/-- Gather the source rows of mm (negative sources wrapped by 100000), multiply by ew, scatter-add at the destinations
    into zeros. -/
def aggregate (g : GatherDims Nodes EndCol Edges) (sc : ScatterDims Nodes EndCol Edges)
    (hs0 : Ends.Slices ![0, 0] EndRow) (hs1 : Ends.Slices ![1, 0] EndRow) (hc : EndRow.ShapeCasts EndVec)
    (hb0 : Scalar0.BroadcastsInDim EndVec (![] : Fin 0 → Fin EndVec.rank))
    (hb1 : EndVec.BroadcastsInDim EndCol (![0] : Fin 1 → Fin EndCol.rank))
    (hbz : Scalar0.BroadcastsInDim Nodes (![] : Fin 0 → Fin Nodes.rank))
    (mm : FVec Ideal Nodes .f32) (ew : FVec Ideal Edges .f32) (ei : IVec Ends 32) : FVec Ideal Nodes .f32 :=
  Host.scatterAdd (F := Ideal) sc (broadcastInDim Nodes ![] hbz (constant (F := Ideal) Scalar0 .f32 0x00000000#32))
    (broadcastInDim EndCol ![0] hb1 (shapeCast EndVec (extractStridedSlice EndRow ![1, 0] ei hs1) hc))
    (mulf (Host.gather g mm
        (broadcastInDim EndCol ![0] hb1
          (select (cmpi .slt (shapeCast EndVec (extractStridedSlice EndRow ![0, 0] ei hs0) hc) (broadcastInDim EndVec ![] hb0 (constantI Scalar0 32 0#32)))
            (addi (shapeCast EndVec (extractStridedSlice EndRow ![0, 0] ei hs0) hc) (broadcastInDim EndVec ![] hb0 (constantI Scalar0 32 100000#32)))
            (shapeCast EndVec (extractStridedSlice EndRow ![0, 0] ei hs0) hc))))
      ew)

end Cert.Aggregate

end
-- ==== Proof.KernelValue.lean ====
/-
  What the idealized kernel returns, as one function of its nine arguments.

  The contents of the buffers at each boundary between the program's five segments are read back to the launch memory:
  the first host line transposes the edge weights; the first call leaves the edge matrix (edge attributes times the
  transposed edge weights), the second the node matrix (features times weights); the host lines between aggregate the
  messages, transpose the two gate weight matrices and re-lay the two biases as rows; the third call leaves the gated
  update of the features by the aggregated messages. No segment writes an argument. Composed, the returned array is
  the gated update with everything spelled over the arguments.
-/
import proofs.«143905_j64622077935967_1_alg».proof.Proof.EdgeProduct
import proofs.«143905_j64622077935967_1_alg».proof.Proof.NodeProduct
import proofs.«143905_j64622077935967_1_alg».proof.Proof.UpdateCall
import proofs.«143905_j64622077935967_1_alg».proof.Proof.Aggregate
import Idealize.ShloMosaic.Lib.StableHlo.Run

set_option maxRecDepth 16384

noncomputable section

namespace Cert.KernelIdeal.Returned

open Cert.KernelIdeal Cert.KernelIdeal.Gen Idealize.ShloMosaic Idealize.ShloMosaic.TcCoe Idealize.SL.Sem Idealize.ShloMosaic.StableHlo
open Idealize.ShloMosaic.ValueIdx Cert.LibPlainDot Cert.LibMatProd Cert.LibGatedUpdate Cert.Aggregate

variable (m : (ℓ : Loc nD τ sig) → Buf (Elt Ideal) ℓ) (ρ : Dev nD → PrngReg)

/-! ## Before the first call: one transpose, nothing else written -/

theorem entry_arg0 (c : Dev nD) : W1 m ρ c (Proc.devRef .tc main_arg0) = m ((c : Thread nD τ).loc main_arg0) := by
  show StableHlo.after hostOps0 (W0 m ρ c) (Proc.devRef .tc main_arg0) = _
  after_results <;> rfl
theorem entry_arg1 (c : Dev nD) : W1 m ρ c (Proc.devRef .tc main_arg1) = m ((c : Thread nD τ).loc main_arg1) := by
  show StableHlo.after hostOps0 (W0 m ρ c) (Proc.devRef .tc main_arg1) = _
  after_results <;> rfl
theorem entry_arg2 (c : Dev nD) : W1 m ρ c (Proc.devRef .tc main_arg2) = m ((c : Thread nD τ).loc main_arg2) := by
  show StableHlo.after hostOps0 (W0 m ρ c) (Proc.devRef .tc main_arg2) = _
  after_results <;> rfl
theorem entry_arg4 (c : Dev nD) : W1 m ρ c (Proc.devRef .tc main_arg4) = m ((c : Thread nD τ).loc main_arg4) := by
  show StableHlo.after hostOps0 (W0 m ρ c) (Proc.devRef .tc main_arg4) = _
  after_results <;> rfl
theorem entry_arg5 (c : Dev nD) : W1 m ρ c (Proc.devRef .tc main_arg5) = m ((c : Thread nD τ).loc main_arg5) := by
  show StableHlo.after hostOps0 (W0 m ρ c) (Proc.devRef .tc main_arg5) = _
  after_results <;> rfl
theorem entry_arg6 (c : Dev nD) : W1 m ρ c (Proc.devRef .tc main_arg6) = m ((c : Thread nD τ).loc main_arg6) := by
  show StableHlo.after hostOps0 (W0 m ρ c) (Proc.devRef .tc main_arg6) = _
  after_results <;> rfl
theorem entry_arg7 (c : Dev nD) : W1 m ρ c (Proc.devRef .tc main_arg7) = m ((c : Thread nD τ).loc main_arg7) := by
  show StableHlo.after hostOps0 (W0 m ρ c) (Proc.devRef .tc main_arg7) = _
  after_results <;> rfl
theorem entry_arg8 (c : Dev nD) : W1 m ρ c (Proc.devRef .tc main_arg8) = m ((c : Thread nD τ).loc main_arg8) := by
  show StableHlo.after hostOps0 (W0 m ρ c) (Proc.devRef .tc main_arg8) = _
  after_results <;> rfl

theorem entry_weights (c : Dev nD) :
    W1 m ρ c (Proc.devRef .tc main_v0) = transpose S32x64 [1, 0] (m ((c : Thread nD τ).loc main_arg3)) transposes_S64x32_S32x64_1_0 := by
  show StableHlo.after hostOps0 (W0 m ρ c) (Proc.devRef .tc main_v0) = _
  after_results <;> rfl

/-! ## After the first call: the edge matrix; the arguments it does not write -/

theorem mid_arg0 (c : Dev nD) : W2 m ρ c (Proc.devRef .tc main_arg0) = m ((c : Thread nD τ).loc main_arg0) :=
  (W2_of_ne m ρ c main_arg0 (by decide)).trans (entry_arg0 m ρ c)
theorem mid_arg1 (c : Dev nD) : W2 m ρ c (Proc.devRef .tc main_arg1) = m ((c : Thread nD τ).loc main_arg1) :=
  (W2_of_ne m ρ c main_arg1 (by decide)).trans (entry_arg1 m ρ c)
theorem mid_arg4 (c : Dev nD) : W2 m ρ c (Proc.devRef .tc main_arg4) = m ((c : Thread nD τ).loc main_arg4) :=
  (W2_of_ne m ρ c main_arg4 (by decide)).trans (entry_arg4 m ρ c)
theorem mid_arg5 (c : Dev nD) : W2 m ρ c (Proc.devRef .tc main_arg5) = m ((c : Thread nD τ).loc main_arg5) :=
  (W2_of_ne m ρ c main_arg5 (by decide)).trans (entry_arg5 m ρ c)
theorem mid_arg6 (c : Dev nD) : W2 m ρ c (Proc.devRef .tc main_arg6) = m ((c : Thread nD τ).loc main_arg6) :=
  (W2_of_ne m ρ c main_arg6 (by decide)).trans (entry_arg6 m ρ c)
theorem mid_arg7 (c : Dev nD) : W2 m ρ c (Proc.devRef .tc main_arg7) = m ((c : Thread nD τ).loc main_arg7) :=
  (W2_of_ne m ρ c main_arg7 (by decide)).trans (entry_arg7 m ρ c)
theorem mid_arg8 (c : Dev nD) : W2 m ρ c (Proc.devRef .tc main_arg8) = m ((c : Thread nD τ).loc main_arg8) :=
  (W2_of_ne m ρ c main_arg8 (by decide)).trans (entry_arg8 m ρ c)

/-- The edge matrix: edge attributes times the transposed edge weights. -/
theorem mid_edges (c : Dev nD) :
    W2 m ρ c (Proc.devRef .tc main_v1)
      = matProd (M := 1600000) (K := 32) (N := 64) (m ((c : Thread nD τ).loc main_arg2))
          (transpose S32x64 [1, 0] (m ((c : Thread nD τ).loc main_arg3)) transposes_S64x32_S32x64_1_0) := by
  refine (W2_arr m ρ c 2).trans ((EdgeProduct.whole (V1 m ρ) c).trans ?_)
  unfold EdgeProduct.product
  rw [show V1 m ρ c main_arg2 = m ((c : Thread nD τ).loc main_arg2) from entry_arg2 m ρ c,
    show V1 m ρ c main_v0 = _ from entry_weights m ρ c]

/-! ## After the second call: the node matrix; the edge matrix and the arguments it does not write -/

theorem late_arg1 (c : Dev nD) : W3 m ρ c (Proc.devRef .tc main_arg1) = m ((c : Thread nD τ).loc main_arg1) :=
  (W3_of_ne m ρ c main_arg1 (by decide)).trans (mid_arg1 m ρ c)
theorem late_arg5 (c : Dev nD) : W3 m ρ c (Proc.devRef .tc main_arg5) = m ((c : Thread nD τ).loc main_arg5) :=
  (W3_of_ne m ρ c main_arg5 (by decide)).trans (mid_arg5 m ρ c)
theorem late_arg6 (c : Dev nD) : W3 m ρ c (Proc.devRef .tc main_arg6) = m ((c : Thread nD τ).loc main_arg6) :=
  (W3_of_ne m ρ c main_arg6 (by decide)).trans (mid_arg6 m ρ c)
theorem late_arg7 (c : Dev nD) : W3 m ρ c (Proc.devRef .tc main_arg7) = m ((c : Thread nD τ).loc main_arg7) :=
  (W3_of_ne m ρ c main_arg7 (by decide)).trans (mid_arg7 m ρ c)
theorem late_arg8 (c : Dev nD) : W3 m ρ c (Proc.devRef .tc main_arg8) = m ((c : Thread nD τ).loc main_arg8) :=
  (W3_of_ne m ρ c main_arg8 (by decide)).trans (mid_arg8 m ρ c)

theorem late_arg0 (c : Dev nD) : W3 m ρ c (Proc.devRef .tc main_arg0) = m ((c : Thread nD τ).loc main_arg0) :=
  (W3_arr m ρ c 0).trans ((((dat1 (V2 m ρ) c).arrAt_in 0 rfl _).trans (A_eq1 (V2 m ρ) c 0)).trans (mid_arg0 m ρ c))

theorem late_edges (c : Dev nD) :
    W3 m ρ c (Proc.devRef .tc main_v1)
      = matProd (M := 1600000) (K := 32) (N := 64) (m ((c : Thread nD τ).loc main_arg2))
          (transpose S32x64 [1, 0] (m ((c : Thread nD τ).loc main_arg3)) transposes_S64x32_S32x64_1_0) :=
  (W3_of_ne m ρ c main_v1 (by decide)).trans (mid_edges m ρ c)

/-- The node matrix: features times weights. -/
theorem late_nodes (c : Dev nD) :
    W3 m ρ c (Proc.devRef .tc main_v2)
      = matProd (M := 100000) (K := 64) (N := 64) (m ((c : Thread nD τ).loc main_arg0)) (m ((c : Thread nD τ).loc main_arg4)) := by
  refine (W3_arr m ρ c 2).trans ((NodeProduct.whole (V2 m ρ) c).trans ?_)
  unfold NodeProduct.product
  rw [show V2 m ρ c main_arg0 = m ((c : Thread nD τ).loc main_arg0) from mid_arg0 m ρ c,
    show V2 m ρ c main_arg4 = m ((c : Thread nD τ).loc main_arg4) from mid_arg4 m ρ c]

/-! ## Before the third call: the aggregated messages, the transposed gate weights, the biases as rows -/

/-- The aggregation of Aggregate.lean at this program's gather and scatter records. -/
abbrev gathered (mm : FVec Ideal Nodes .f32) (ew : FVec Ideal Edges .f32) (ei : IVec Ends 32) : FVec Ideal Nodes .f32 :=
  aggregate gather_S100000x64_S1600000x1_S1600000x64_1_0_n_n_0_1_164 scatter_S100000x64_S1600000x1_S1600000x64_1_0_0_1
    slices_S2x1600000_S1x1600000_0_0 slices_S2x1600000_S1x1600000_1_0 shapeCasts_S1x1600000_S1600000
    bcast_S_S1600000 bcast_S1600000_S1600000x1_0 bcast_S_S100000x64 mm ew ei

theorem last_messages (c : Dev nD) :
    (V4 m ρ c main_v17 : S100000x64.Idx → EReal)
      = gathered (matProd (M := 100000) (K := 64) (N := 64) (m ((c : Thread nD τ).loc main_arg0)) (m ((c : Thread nD τ).loc main_arg4)))
          (matProd (M := 1600000) (K := 32) (N := 64) (m ((c : Thread nD τ).loc main_arg2))
            (transpose S32x64 [1, 0] (m ((c : Thread nD τ).loc main_arg3)) transposes_S64x32_S32x64_1_0))
          (m ((c : Thread nD τ).loc main_arg1)) := by
  rw [← late_nodes m ρ c, ← late_edges m ρ c, ← late_arg1 m ρ c]
  show StableHlo.after hostOps2 (W3 m ρ c) (Proc.devRef .tc main_v17) = _
  after_results_simp <;> rfl

theorem last_features (c : Dev nD) : V4 m ρ c main_arg0 = m ((c : Thread nD τ).loc main_arg0) := by
  rw [← late_arg0 m ρ c]
  show StableHlo.after hostOps2 (W3 m ρ c) (Proc.devRef .tc main_arg0) = _
  after_results_simp <;> rfl

theorem last_wi (c : Dev nD) :
    V4 m ρ c main_v18 = transpose S64x192 [1, 0] (m ((c : Thread nD τ).loc main_arg5)) transposes_S192x64_S64x192_1_0 := by
  rw [← late_arg5 m ρ c]
  show StableHlo.after hostOps2 (W3 m ρ c) (Proc.devRef .tc main_v18) = _
  after_results_simp <;> rfl

theorem last_wh (c : Dev nD) :
    V4 m ρ c main_v19 = transpose S64x192 [1, 0] (m ((c : Thread nD τ).loc main_arg6)) transposes_S192x64_S64x192_1_0 := by
  rw [← late_arg6 m ρ c]
  show StableHlo.after hostOps2 (W3 m ρ c) (Proc.devRef .tc main_v19) = _
  after_results_simp <;> rfl

theorem last_bi (c : Dev nD) :
    V4 m ρ c main_v20 = shapeCast S1x192 (m ((c : Thread nD τ).loc main_arg7)) shapeCasts_S192_S1x192 := by
  rw [← late_arg7 m ρ c]
  show StableHlo.after hostOps2 (W3 m ρ c) (Proc.devRef .tc main_v20) = _
  after_results_simp <;> rfl

theorem last_bh (c : Dev nD) :
    V4 m ρ c main_v21 = shapeCast S1x192 (m ((c : Thread nD τ).loc main_arg8)) shapeCasts_S192_S1x192 := by
  rw [← late_arg8 m ρ c]
  show StableHlo.after hostOps2 (W3 m ρ c) (Proc.devRef .tc main_v21) = _
  after_results_simp <;> rfl

/-! ## The returned array -/

/-- The program's result as a function of the nine arguments. -/
def result (a0 : FVec Ideal S100000x64 .f32) (a1 : IVec S2x1600000 32) (a2 : FVec Ideal S1600000x32 .f32) (a3 : FVec Ideal S64x32 .f32)
    (a4 : FVec Ideal S64x64 .f32) (a5 a6 : FVec Ideal S192x64 .f32) (a7 a8 : FVec Ideal S192 .f32) : FVec Ideal S100000x64 .f32 :=
  blend (M := 100000)
    (affine (M := 100000) (K := 64) (N := 192)
      (gathered (matProd (M := 100000) (K := 64) (N := 64) a0 a4)
        (matProd (M := 1600000) (K := 32) (N := 64) a2 (transpose S32x64 [1, 0] a3 transposes_S64x32_S32x64_1_0)) a1)
      (transpose S64x192 [1, 0] a5 transposes_S192x64_S64x192_1_0) a7)
    (affine (M := 100000) (K := 64) (N := 192) a0 (transpose S64x192 [1, 0] a6 transposes_S192x64_S64x192_1_0) a8)
    a0

/-- The last boundary's contents at the returned buffer are `result` of the launch contents of the arguments. -/
theorem returned (c : Dev nD) :
    W5 m ρ c (Proc.devRef .tc main_v22)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W5_arr m ρ c 6).trans ((UpdateCall.whole (V4 m ρ) c).trans ?_)
  unfold UpdateCall.update
  rw [last_messages m ρ c, last_features m ρ c, last_wi m ρ c, last_wh m ρ c, last_bi m ρ c, last_bh m ρ c]
  rw [rowVec_cast, rowVec_cast]
  rfl

end Cert.KernelIdeal.Returned

end
-- ==== Proof.ReferenceValue.lean ====
/-
  What the idealized reference returns, as one function of its nine arguments.

  The reference is a line of host operations; its result is their composed term. Read whole array by whole array:
  one over (one plus the exponential of the negation) is the logistic function; a contraction of the second axis of the
  left operand with the first of the right, plus a bias broadcast to a row and then down the rows, is
  rows-times-columns-plus-bias; a bare such contraction is the matrix product; the gather, multiply and scatter-add
  lines are the aggregation of Aggregate.lean. What is left is entry by entry: the three column groups of the two
  192-column matrices, the logistic function, the hyperbolic tangent, the clamp at zero and the mean with the features
  — the gated update of LibGatedUpdate.lean.
-/
import proofs.«143905_j64622077935967_1_alg».proof.Proof.Gen.ReferenceIdeal.Run
import proofs.«143905_j64622077935967_1_alg».proof.Proof.LibGatedUpdate
import proofs.«143905_j64622077935967_1_alg».proof.Proof.Aggregate

set_option maxRecDepth 16384

noncomputable section

namespace Cert.ReferenceIdeal.Returned

open Cert.ReferenceIdeal Cert.ReferenceIdeal.Gen Cert.ReferenceIdeal.Value Idealize.ShloMosaic Idealize.ShloMosaic.TcCoe Idealize.SL.Sem
open Idealize.ShloMosaic.ValueIdx Cert.LibPlainDot Cert.LibMatProd Cert.LibGatedUpdate Cert.Aggregate

theorem logistic_at {s : Shape} (v : FVec Ideal s .f32) (i : s.Idx) : logistic v i = Ideal.logistic (v i) := rfl
theorem tanh_at {s : Shape} (v : FVec Ideal s .f32) (i : s.Idx) : Host.tanh (F := Ideal) v i = Ideal.tanh (v i) := rfl

/-- The three column groups of the 100000-row matrices, read at an entry. -/
theorem group0 (v : S100000x192.Idx → EReal) (p : Fin 100000) (q : Fin 64) :
    extractStridedSlice S100000x64 ![0, 0] v slices_S100000x192_S100000x64_0_0 (ix2 p q) = v (ix2 p (col 0 q)) :=
  slice_col (M := 100000) 0 v slices_S100000x192_S100000x64_0_0 p q
theorem group1 (v : S100000x192.Idx → EReal) (p : Fin 100000) (q : Fin 64) :
    extractStridedSlice S100000x64 ![0, 64] v slices_S100000x192_S100000x64_0_64 (ix2 p q) = v (ix2 p (col 1 q)) :=
  slice_col (M := 100000) 1 v slices_S100000x192_S100000x64_0_64 p q
theorem group2 (v : S100000x192.Idx → EReal) (p : Fin 100000) (q : Fin 64) :
    extractStridedSlice S100000x64 ![0, 128] v slices_S100000x192_S100000x64_0_128 (ix2 p q) = v (ix2 p (col 2 q)) :=
  slice_col (M := 100000) 2 v slices_S100000x192_S100000x64_0_128 p q

/-- The aggregation of Aggregate.lean at this program's gather and scatter records. -/
abbrev gathered (mm : FVec Ideal Nodes .f32) (ew : FVec Ideal Edges .f32) (ei : IVec Ends 32) : FVec Ideal Nodes .f32 :=
  aggregate gather_S100000x64_S1600000x1_S1600000x64_1_0_n_n_0_1_164 scatter_S100000x64_S1600000x1_S1600000x64_1_0_0_1
    slices_S2x1600000_S1x1600000_0_0 slices_S2x1600000_S1x1600000_1_0 shapeCasts_S1x1600000_S1600000
    bcast_S_S1600000 bcast_S1600000_S1600000x1_0 bcast_S_S100000x64 mm ew ei

/-- The program's result as a function of the nine arguments. -/
def result (a0 : FVec Ideal S100000x64 .f32) (a1 : IVec S2x1600000 32) (a2 : FVec Ideal S1600000x32 .f32) (a3 : FVec Ideal S64x32 .f32)
    (a4 : FVec Ideal S64x64 .f32) (a5 a6 : FVec Ideal S192x64 .f32) (a7 a8 : FVec Ideal S192 .f32) : FVec Ideal S100000x64 .f32 :=
  blend (M := 100000)
    (affine (M := 100000) (K := 64) (N := 192)
      (gathered (matProd (M := 100000) (K := 64) (N := 64) a0 a4)
        (matProd (M := 1600000) (K := 32) (N := 64) a2 (transpose S32x64 [1, 0] a3 transposes_S64x32_S32x64_1_0)) a1)
      (transpose S64x192 [1, 0] a5 transposes_S192x64_S64x192_1_0) a7)
    (affine (M := 100000) (K := 64) (N := 192) a0 (transpose S64x192 [1, 0] a6 transposes_S192x64_S64x192_1_0) a8)
    a0

/-- The host's spelling of the gated update over two 192-column matrices and the features — column groups by slices, the
    logistic function, the hyperbolic tangent, the clamp against a broadcast zero, the mean with the features — is the
    gated update. -/
theorem host_blend (gi gh : FVec Ideal S100000x192 .f32) (x : FVec Ideal S100000x64 .f32) :
    addf (mulf (broadcastInDim S100000x64 ![] bcast_S_S100000x64 (constant (F := Ideal) S_ .f32 0x3F000000#32))
        (maximumf
          (addf
            (mulf
              (subf (broadcastInDim S100000x64 ![] bcast_S_S100000x64 (constant (F := Ideal) S_ .f32 0x3F800000#32))
                (logistic (addf (extractStridedSlice S100000x64 ![0, 64] gi slices_S100000x192_S100000x64_0_64)
                  (extractStridedSlice S100000x64 ![0, 64] gh slices_S100000x192_S100000x64_0_64))))
              (Host.tanh (F := Ideal)
                (addf (extractStridedSlice S100000x64 ![0, 128] gi slices_S100000x192_S100000x64_0_128)
                  (mulf
                    (logistic (addf (extractStridedSlice S100000x64 ![0, 0] gi slices_S100000x192_S100000x64_0_0)
                      (extractStridedSlice S100000x64 ![0, 0] gh slices_S100000x192_S100000x64_0_0)))
                    (extractStridedSlice S100000x64 ![0, 128] gh slices_S100000x192_S100000x64_0_128)))))
            (mulf
              (logistic (addf (extractStridedSlice S100000x64 ![0, 64] gi slices_S100000x192_S100000x64_0_64)
                (extractStridedSlice S100000x64 ![0, 64] gh slices_S100000x192_S100000x64_0_64)))
              x))
          (broadcastInDim S100000x64 ![] bcast_S_S100000x64 (constant (F := Ideal) S_ .f32 0x00000000#32))))
      (mulf (broadcastInDim S100000x64 ![] bcast_S_S100000x64 (constant (F := Ideal) S_ .f32 0x3F000000#32)) x)
      = blend (M := 100000) gi gh x := by
  funext j
  obtain ⟨p, q, rfl⟩ : ∃ (p : Fin 100000) (q : Fin 64), j = ix2 p q := ⟨j 0, j 1, eq_ix2 j⟩
  rw [blend_apply]
  simp only [addf_apply, mulf_apply, subf_apply, maximumf_apply, logistic_at, tanh_at, group0, group1, group2]
  rfl

/-- The reference run's result term is `result` of the launch contents of the arguments. -/
theorem returned (m : (ℓ : Loc nD τ sig) → Buf (Elt Ideal) ℓ) (c : Dev nD) :
    res_main_v61 (F := Ideal) m c
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  unfold res_main_v61
  rw [host_sigmoid_eq (s := S100000x64) _ bcast_S_S100000x64, host_sigmoid_eq (s := S100000x64) _ bcast_S_S100000x64]
  rw [dot_bias_eq dot_S100000x64_S64x192_S100000x192_1_0_0_1_n_n rfl rfl rfl rfl rfl rfl,
    dot_bias_eq dot_S100000x64_S64x192_S100000x192_1_0_0_1_n_n rfl rfl rfl rfl rfl rfl]
  rw [host_dot_eq dot_S100000x64_S64x64_S100000x64_1_0_0_1_n_n rfl rfl rfl rfl rfl rfl,
    host_dot_eq dot_S1600000x32_S32x64_S1600000x64_1_0_0_1_n_n rfl rfl rfl rfl rfl rfl]
  rw [host_blend]
  unfold result gathered aggregate
  with_reducible rfl

end Cert.ReferenceIdeal.Returned

end
-- ==== Proof.lean ====
/-
  The certificate of a graph layer with a gated update: kernel against reference, at the exact extended reals.

  Both programs compute, from node features x, edge endpoints, edge attributes and five weight arrays: the edge matrix
  (edge attributes times the transposed edge weights), the node matrix (x times the layer's weights), the messages
  aggregated over the edges (each edge's source row of the node matrix times its row of the edge matrix, summed at the
  edge's destination), and the gated update of x by the aggregated messages, averaged with x. The kernel computes the
  two matrix products and the gated update in three row-tiled calls on the matrix and vector units and leaves the
  aggregation to the same host operations the reference uses; the reference is host operations throughout. At the exact
  extended reals narrowing to bf16 is the identity, a row-tiled product is the product, and the logistic function is
  one over one plus the exponential of the negation, so both return the same function of the arguments
  (KernelValue.lean, ReferenceValue.lean); the laws used are definitional or hold on all extended reals, so the
  precondition that the inputs are finite is never opened. The kernel's run keeping its result in view is KernelRun.lean;
  the reference's run and all three frames are generated; the statement records that the idealization rewrote no
  operation, so that conjunct is the trivial proposition.
-/
import proofs.«143905_j64622077935967_1_alg».proof.Defs
import proofs.«143905_j64622077935967_1_alg».proof.Proof.Gen.Kernel
import proofs.«143905_j64622077935967_1_alg».proof.Proof.Gen.Kernel.Skeleton
import proofs.«143905_j64622077935967_1_alg».proof.Proof.Gen.Kernel.Launch
import proofs.«143905_j64622077935967_1_alg».proof.Proof.Gen.Kernel.Points
import proofs.«143905_j64622077935967_1_alg».proof.Proof.Gen.Kernel.Frame
import proofs.«143905_j64622077935967_1_alg».proof.Proof.Gen.KernelIdeal
import proofs.«143905_j64622077935967_1_alg».proof.Proof.Gen.KernelIdeal.Skeleton
import proofs.«143905_j64622077935967_1_alg».proof.Proof.Gen.KernelIdeal.Launch
import proofs.«143905_j64622077935967_1_alg».proof.Proof.Gen.KernelIdeal.Points
import proofs.«143905_j64622077935967_1_alg».proof.Proof.Gen.KernelIdeal.Frame
import proofs.«143905_j64622077935967_1_alg».proof.Proof.Gen.ReferenceIdeal
import proofs.«143905_j64622077935967_1_alg».proof.Proof.Gen.Pre_finite_inputs
import proofs.«143905_j64622077935967_1_alg».proof.Proof.Gen.ReferenceIdeal.Run
import proofs.«143905_j64622077935967_1_alg».proof.Proof.KernelRun
import proofs.«143905_j64622077935967_1_alg».proof.Proof.KernelValue
import proofs.«143905_j64622077935967_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two programs' gather records have the same dimension numbers. -/
theorem same_gather : Cert.ReferenceIdeal.gather_S100000x64_S1600000x1_S1600000x64_1_0_n_n_0_1_164
    = Cert.KernelIdeal.gather_S100000x64_S1600000x1_S1600000x64_1_0_n_n_0_1_164 := rfl

/-- The two programs' scatter records have the same dimension numbers. -/
theorem same_scatter : Cert.ReferenceIdeal.scatter_S100000x64_S1600000x1_S1600000x64_1_0_0_1
    = Cert.KernelIdeal.scatter_S100000x64_S1600000x1_S1600000x64_1_0_0_1 := rfl

/-- The two programs' results are one function of the arguments: the same products, the same aggregation, the same
    gated update. -/
theorem one_function (a0 : FVec Ideal Cert.KernelIdeal.S100000x64 .f32) (a1 : IVec Cert.KernelIdeal.S2x1600000 32)
    (a2 : FVec Ideal Cert.KernelIdeal.S1600000x32 .f32) (a3 : FVec Ideal Cert.KernelIdeal.S64x32 .f32)
    (a4 : FVec Ideal Cert.KernelIdeal.S64x64 .f32) (a5 a6 : FVec Ideal Cert.KernelIdeal.S192x64 .f32)
    (a7 a8 : FVec Ideal Cert.KernelIdeal.S192 .f32) :
    Cert.ReferenceIdeal.Returned.result a0 a1 a2 a3 a4 a5 a6 a7 a8 = Cert.KernelIdeal.Returned.result a0 a1 a2 a3 a4 a5 a6 a7 a8 := by
  unfold Cert.ReferenceIdeal.Returned.result Cert.KernelIdeal.Returned.result
    Cert.ReferenceIdeal.Returned.gathered Cert.KernelIdeal.Returned.gathered
  rw [same_gather, same_scatter]

/-- From memories agreeing on the arguments both runs end, the kernel's returned array (the last boundary's contents,
    read back to the arguments) and the reference's (its composed term, read the same way) at one function of the
    arguments, the arguments unchanged. -/
theorem algebraic : Cert.algebraic_KernelIdeal_ReferenceIdeal := by
  intro m ρ m' ρ' _ hagree
  refine ⟨fun c => Cert.KernelIdeal.Returned.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Returned.returned m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Returned.returned m' c, e0, e1, e2, e3, e4, e5, e6, e7, e8]
    exact one_function _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
